-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x768 : Shape := ⟨3, ![64, 576, 768]⟩
abbrev S576x768 : Shape := ⟨2, ![576, 768]⟩
abbrev S_ : Shape := ⟨0, ![]⟩

class Facts : Prop where
  bcast_S_S64x576x768 : S_.BroadcastsInDim S64x576x768 (![] : Fin 0 → Fin S64x576x768.rank)
  reducesTo_S64x576x768_S_d0_1_2 : S64x576x768.ReducesTo [0, 1, 2] S_
  h_S_ : 0 < S_.numel
  bcast_S_S576x768 : S_.BroadcastsInDim S576x768 (![] : Fin 0 → Fin S576x768.rank)
  reducesTo_S576x768_S_d0_1 : S576x768.ReducesTo [0, 1] S_

variable [Facts]

def fn {F : FTy → Type} [FloatOps F] (main_arg0 : FVec F S64x576x768 .f32) (main_arg1 : FVec F S576x768 .f32) : IVec S_ 1 :=
  let main_v0 : FVec F S64x576x768 .f32 := Host.absf main_arg0
  let main_cst : FVec F S_ .f32 := constant S_ .f32 0x7F800000#32
  let main_v1 : FVec F S64x576x768 .f32 := broadcastInDim S64x576x768 ![] bcast_S_S64x576x768 main_cst
  let main_v2 : IVec S64x576x768 1 := cmpf .olt main_v0 main_v1
  let main_c : IVec S_ 1 := constantI S_ 1 1#1
  let main_v3 : IVec S_ 1 := (fun x v => Host.reduce IntOp.andi x v reducesTo_S64x576x768_S_d0_1_2 h_S_) main_v2 main_c
  let main_v4 : FVec F S576x768 .f32 := Host.absf main_arg1
  let main_cst_0 : FVec F S_ .f32 := constant S_ .f32 0x7F800000#32
  let main_v5 : FVec F S576x768 .f32 := broadcastInDim S576x768 ![] bcast_S_S576x768 main_cst_0
  let main_v6 : IVec S576x768 1 := cmpf .olt main_v4 main_v5
  let main_c_1 : IVec S_ 1 := constantI S_ 1 1#1
  let main_v7 : IVec S_ 1 := (fun x v => Host.reduce IntOp.andi x v reducesTo_S576x768_S_d0_1 h_S_) main_v6 main_c_1
  let main_v8 : IVec S_ 1 := andi main_v3 main_v7
  main_v8
-- ==== Kernel.lean ====
abbrev S64x576x768 : Shape := ⟨3, ![64, 576, 768]⟩
abbrev S576x768 : Shape := ⟨2, ![576, 768]⟩
abbrev S1x576x768 : Shape := ⟨3, ![1, 576, 768]⟩

abbrev nBuf : Space → Nat
  | .hbm => 3
  | .vmem => 5
  | .smem => 0
  | _ => 0

abbrev bufTy : (tb : Table) → Fin (tcTables nBuf tb) → BufTy
  | .hbm, ⟨0, _⟩ => ⟨S64x576x768, .f32⟩
  | .hbm, ⟨1, _⟩ => ⟨S576x768, .f32⟩
  | .hbm, ⟨2, _⟩ => ⟨S64x576x768, .f32⟩
  | .local _ .vmem, ⟨0, _⟩ => ⟨S1x576x768, .f32⟩
  | .local _ .vmem, ⟨1, _⟩ => ⟨S1x576x768, .f32⟩
  | .local _ .vmem, ⟨2, _⟩ => ⟨S576x768, .f32⟩
  | .local _ .vmem, ⟨3, _⟩ => ⟨S1x576x768, .f32⟩
  | .local _ .vmem, ⟨4, _⟩ => ⟨S1x576x768, .f32⟩
  | _, _ => ⟨S64x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x576x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x576x768_S1x576x768_0_0_0 : ∀ a, (![0, 0, 0] : Fin 3 → Nat) a + S1x576x768.size a ≤ S1x576x768.size a
  h_S1x576x768 : 0 < S1x576x768.numel
  inb_S576x768_S576x768_0_0 : ∀ a, (![0, 0] : Fin 2 → Nat) a + S576x768.size a ≤ S576x768.size a
  h_S576x768 : 0 < S576x768.numel
  shapeCasts_S576x768_S1x576x768 : S576x768.ShapeCasts S1x576x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x768.size a ≤ S64x576x768.size a
  hwx0_0 : ∀ i : grid0.Coords, EltTy.bits .f32 = 32 ∨ (Rect.block (s := S64x576x768) S1x576x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x768.size a ≤ S576x768.size a
  hwx0_1 : ∀ i : grid0.Coords, EltTy.bits .f32 = 32 ∨ (Rect.block (s := S576x768) S576x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x576x768.size a ≤ S64x576x768.size a
  hwx0_2 : ∀ i : grid0.Coords, EltTy.bits .f32 = 32 ∨ (Rect.block (s := S64x576x768) S1x576x768.size (cc0_transform_2 i) (hinb0_2 i)).WholeWords (EltTy.packing .f32)

variable [Facts₀]

abbrev win0_0 : Pipeline.Window sig grid0 :=
  Pipeline.Window.ofSpec (Memref.whole main_arg0) S1x576x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x576x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x576x768 : Shape := ⟨3, ![64, 576, 768]⟩
abbrev S576x768 : Shape := ⟨2, ![576, 768]⟩
abbrev S576 : Shape := ⟨1, ![576]⟩
abbrev S_ : Shape := ⟨0, ![]⟩
abbrev S576x1 : Shape := ⟨2, ![576, 1]⟩
abbrev S1 : Shape := ⟨1, ![1]⟩
abbrev S1x1 : Shape := ⟨2, ![1, 1]⟩
abbrev S1x576x768 : Shape := ⟨3, ![1, 576, 768]⟩

abbrev nBuf : Space → Nat
  | .hbm => 29
  | .vmem => 0
  | .smem => 0
  | _ => 0

abbrev bufTy : (tb : Table) → Fin (tcTables nBuf tb) → BufTy
  | .hbm, ⟨0, _⟩ => ⟨S64x576x768, .f32⟩
  | .hbm, ⟨1, _⟩ => ⟨S576x768, .f32⟩
  | .hbm, ⟨2, _⟩ => ⟨S576, .i32⟩
  | .hbm, ⟨3, _⟩ => ⟨S_, .i32⟩
  | .hbm, ⟨4, _⟩ => ⟨S576, .i32⟩
  | .hbm, ⟨5, _⟩ => ⟨S576, .i1⟩
  | .hbm, ⟨6, _⟩ => ⟨S_, .i32⟩
  | .hbm, ⟨7, _⟩ => ⟨S576, .i32⟩
  | .hbm, ⟨8, _⟩ => ⟨S576, .i32⟩
  | .hbm, ⟨9, _⟩ => ⟨S576, .i32⟩
  | .hbm, ⟨10, _⟩ => ⟨S576x1, .i32⟩
  | .hbm, ⟨11, _⟩ => ⟨S1, .i32⟩
  | .hbm, ⟨12, _⟩ => ⟨S_, .i32⟩
  | .hbm, ⟨13, _⟩ => ⟨S576x1, .i32⟩
  | .hbm, ⟨14, _⟩ => ⟨S576x1, .i1⟩
  | .hbm, ⟨15, _⟩ => ⟨S1x1, .i32⟩
  | .hbm, ⟨16, _⟩ => ⟨S576x1, .i32⟩
  | .hbm, ⟨17, _⟩ => ⟨S576x1, .i1⟩
  | .hbm, ⟨18, _⟩ => ⟨S576x1, .i1⟩
  | .hbm, ⟨19, _⟩ => ⟨S_, .i1⟩
  | .hbm, ⟨20, _⟩ => ⟨S576, .i1⟩
  | .hbm, ⟨21, _⟩ => ⟨S576x768, .f32⟩
  | .hbm, ⟨22, _⟩ => ⟨S576x768, .i1⟩
  | .hbm, ⟨23, _⟩ => ⟨S_, .f32⟩
  | .hbm, ⟨24, _⟩ => ⟨S576x768, .f32⟩
  | .hbm, ⟨25, _⟩ => ⟨S576x768, .f32⟩
  | .hbm, ⟨26, _⟩ => ⟨S1x576x768, .f32⟩
  | .hbm, ⟨27, _⟩ => ⟨S64x576x768, .f32⟩
  | .hbm, ⟨28, _⟩ => ⟨S64x576x768, .f32⟩
  | _, _ => ⟨S64x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S576 : S_.BroadcastsInDim S576 (![] : Fin 0 → Fin S576.rank)
  bcast_S576_S576x1_0 : S576.BroadcastsInDim S576x1 (![0] : Fin 1 → Fin S576x1.rank)
  bcast_S_S576x1 : S_.BroadcastsInDim S576x1 (![] : Fin 0 → Fin S576x1.rank)
  bcast_S1_S1x1_1 : S1.BroadcastsInDim S1x1 (![1] : Fin 1 → Fin S1x1.rank)
  bcast_S1x1_S576x1_0_1 : S1x1.BroadcastsInDim S576x1 (![0, 1] : Fin 2 → Fin S576x1.rank)
  reducesTo_S576x1_S576_d1 : S576x1.ReducesTo [1] S576
  h_S_ : 0 < S_.numel
  bcast_S576_S576x768_0 : S576.BroadcastsInDim S576x768 (![0] : Fin 1 → Fin S576x768.rank)
  bcast_S_S576x768 : S_.BroadcastsInDim S576x768 (![] : Fin 0 → Fin S576x768.rank)
  bcast_S576x768_S1x576x768_1_2 : S576x768.BroadcastsInDim S1x576x768 (![1, 2] : Fin 2 → Fin S1x576x768.rank)
  bcast_S1x576x768_S64x576x768_0_1_2 : S1x576x768.BroadcastsInDim S64x576x768 (![0, 1, 2] : Fin 3 → Fin S64x576x768.rank)
  gather_S576x768_S576x1_S576x768_1_0_n_n_0_1_1768_wf : GatherDims.WF S576x768 S576x1 S576x768 [1] [0] [] [0] [] 1 ![1, 768]

variable [Facts₀]

def gather_S576x768_S576x1_S576x768_1_0_n_n_0_1_1768 : GatherDims S576x768 S576x1 S576x768 where
  offsetDims := [1]
  collapsedSliceDims := [0]
  operandBatchingDims := []
  startIndicesBatchingDims := []
  startIndexMap := [0]
  indexVectorDim := 1
  sliceSizes := ![1, 768]
  wf := gather_S576x768_S576x1_S576x768_1_0_n_n_0_1_1768_wf

class Facts : Prop extends Facts₀ where

variable [Facts]
-- ==== Proof.Spec.lean ====
/-
  The positional-embedding sum, as one function of the two argument arrays.

  A batch of 64 sequences of 576 patch embeddings of 768 features, and one table of 576 position embeddings of 768
  features. Every sequence of the batch gets the same table added: element (b, p, d) of the result is element
  (b, p, d) of the batch plus element (p, d) of the table. The sum is the float addition of whichever float
  instance the arrays are read at; nothing here depends on which.
-/
import Idealize.ShloMosaic.PureOps
import Idealize.ShloMosaic.Lib.ValueIdx

noncomputable section

namespace PosEmbed

open Idealize.ShloMosaic

/-- The batch of patch embeddings: sequences × patches × features. -/
abbrev Enc : Shape := ⟨3, ![64, 576, 768]⟩
/-- The position table: patches × features. -/
abbrev Tab : Shape := ⟨2, ![576, 768]⟩

/-- The table entry an element of the batch meets: its patch and its feature, the sequence number forgotten. -/
def under (i : Enc.Idx) : Tab.Idx := fun a => match a with
  | ⟨0, _⟩ => ⟨(i 1).val, by have h : (i 1).val < 576 := (i 1).isLt; exact h⟩
  | ⟨1, _⟩ => ⟨(i 2).val, by have h : (i 2).val < 768 := (i 2).isLt; exact h⟩

theorem under_val0 (i : Enc.Idx) : (under i 0).val = (i 1).val := rfl
theorem under_val1 (i : Enc.Idx) : (under i 1).val = (i 2).val := rfl

variable {F : FTy → Type} [FloatOps F]

/-- The batch with the table added to every sequence: (b, p, d) ↦ x (b, p, d) + pos (p, d). -/
def withPositions (x : Vec F Enc .f32) (pos : Vec F Tab .f32) : Vec F Enc .f32 :=
  fun i => FloatOps.addf (x i) (pos (under i))

end PosEmbed

end
-- ==== Proof.KernelArray.lean ====
/-
  What the kernel leaves in its result array.

  The grid has one point per sequence of the batch. Point t stages sequence t of the batch (a block of one sequence),
  the whole position table (the same block at every point), and writes back sequence t of the result. The body adds
  the table, recast as a block of one sequence, to the staged sequence. So the block point t writes is sequence t of
  the batch with the table added, and the 64 blocks cover the result array: after the run it holds the batch with
  the table added to every sequence.
-/
import proofs.«169601_g40587440947273_cont_8to1_b_209_2_alg».proof.Proof.Gen.KernelIdeal.Value
import proofs.«169601_g40587440947273_cont_8to1_b_209_2_alg».proof.Proof.Spec

noncomputable section

namespace Cert.KernelIdeal.PosAdd

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- The index maps over the 64 grid points: the batch's block and the result's block are the same sequence, at the
    start of the other two axes; the table's block is always the whole table. -/
theorem index_facts : ∀ t : Fin cfg0.N,
    win0_0.index t (0 : Fin 3) = win0_2.index t (0 : Fin 3)
    ∧ win0_0.index t (1 : Fin 3) = 0 ∧ win0_0.index t (2 : Fin 3) = 0
    ∧ win0_2.index t (1 : Fin 3) = 0 ∧ win0_2.index t (2 : Fin 3) = 0
    ∧ win0_1.index t (0 : Fin 2) = 0 ∧ win0_1.index t (1 : Fin 2) = 0 :=
  (by decide +kernel : ∀ t : Fin grid0.N, _)

/-- Every sequence of the result is some point's block. -/
theorem index_onto : ∀ q : Fin 64, ∃ t : Fin cfg0.N, win0_2.index t = ![q.val, 0, 0] :=
  (by decide +kernel : ∀ q : Fin 64, ∃ t : Fin grid0.N, win0_2.index t = ![q.val, 0, 0])

/-- What point t writes back is block t of the batch with the table added. -/
theorem flushed_eq (c : Dev nD) (t : Fin cfg0.N) :
    (dats m 0 c).flushed 2 t = ((cfg0.win 2).blk t).view.read (Elt F)
      (PosEmbed.withPositions (V m c main_arg0) (V m c main_arg1)) := by
  rw [Value.flushed2]
  unfold out0_2
  simp only [View.ld_unit_zero (S := S1x576x768) origin3, View.ld_unit_zero (S := S576x768) origin2]
  obtain ⟨e0, e1, e2, e3, e4, e5, e6⟩ := index_facts t
  have hc : View.canon [⟨r0_0, k0_pay1 (iblk m c 0 t) (iblk m c 1 t)⟩] = Value.E2 (iblk m c 0 t) (iblk m c 1 t) :=
    funext (Value.canon2_eq (iblk m c 0 t) (iblk m c 1 t))
  rw [hc]
  funext j
  unfold Pipeline.Window.cut Pipeline.Window.xinj
  unfold PosEmbed.withPositions
  show FloatOps.addf (iblk m c 0 t _) (iblk m c 1 t _) = FloatOps.addf (V m c main_arg0 (((cfg0.win 2).blk t).view.emb j))
        (V m c main_arg1 (PosEmbed.under (((cfg0.win 2).blk t).view.emb j)))
  unfold iblk
  have hj0 : (j 0).val < 1 := (j 0).isLt
  refine congrArg₂ FloatOps.addf ?_ ?_
  · show V m c main_arg0 (((cfg0.win 0).blk t).view.emb _) = _
    refine congrArg (V m c main_arg0) ?_
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 576 + 1 * (j 1).val = win0_2.index t (1 : Fin 3) * 576 + 1 * (j 1).val; omega
    | ⟨2, _⟩ => show win0_0.index t (2 : Fin 3) * 768 + 1 * (j 2).val = win0_2.index t (2 : Fin 3) * 768 + 1 * (j 2).val; omega
  · show V m c main_arg1 (((cfg0.win 1).blk t).view.emb _) = _
    refine congrArg (V m c main_arg1) ?_
    funext a; apply Fin.ext
    match a with
    | ⟨0, _⟩ => show win0_1.index t (0 : Fin 2) * 576 + 1 * (j 1).val = win0_2.index t (1 : Fin 3) * 576 + 1 * (j 1).val; omega
    | ⟨1, _⟩ => show win0_1.index t (1 : Fin 2) * 768 + 1 * (j 2).val = win0_2.index t (2 : Fin 3) * 768 + 1 * (j 2).val; omega

/-- An index of the result array is in point t's block iff each coordinate is in the block's range on its axis. -/
theorem mem_block (t : Fin cfg0.N) (i : S64x576x768.Idx) :
    i ∈ ((cfg0.win 2).blk t).view.set ↔ ∀ a : Fin 3, win0_2.index t a * S1x576x768.size a ≤ (i a).val ∧ (i a).val < win0_2.index t a * S1x576x768.size a + S1x576x768.size a := by
  show i ∈ ((View.whole main_v0).slice (win0_2.rect t)).set ↔ _
  rw [View.set_slice_whole, Rect.mem_set_unit]
  exact Iff.rfl

/-- Every element of the result array lies in the block of the point that handles its sequence. -/
theorem covered (i : S64x576x768.Idx) :
    ∃ t : Fin cfg0.N, (cfg0.win 2).flush t = true ∧ i ∈ ((cfg0.win 2).blk t).view.set := by
  have hi0 : (i 0).val < 64 := (i 0).isLt
  have hi1 : (i 1).val < 576 := (i 1).isLt
  have hi2 : (i 2).val < 768 := (i 2).isLt
  obtain ⟨t, ht⟩ := index_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 576 ≤ (i 1).val ∧ (i 1).val < win0_2.index t (1 : Fin 3) * 576 + 576; omega
  | ⟨2, _⟩ => show win0_2.index t (2 : Fin 3) * 768 ≤ (i 2).val ∧ (i 2).val < win0_2.index t (2 : Fin 3) * 768 + 768; omega

/-- The result array after the run: the batch, as launched, with the table, as launched, added to every sequence. -/
theorem final (c : Dev nD) :
    (dats m 0 c).arrAt 2 cfg0.N
      = PosEmbed.withPositions (m ((c : Thread nD τ).loc main_arg0)) (m ((c : Thread nD τ).loc main_arg1)) :=
  (dats m 0 c).arrAt_eq_of_cover 2 (PosEmbed.withPositions (V m c main_arg0) (V m c main_arg1))
    (fun t _ => flushed_eq m c t) covered

/-- The kernel's run: every weakly fair execution terminates with the result array at the batch with the table added,
    the two argument arrays unchanged. -/
theorem run : θ_run defs (onTc (τ := τ) (main (F := F))) ⟨m, fun _ => 0, ρ⟩ fun r => ∀ c : Dev nD,
      r.2.mem ((c : Thread nD τ).loc main_v0)
        = PosEmbed.withPositions (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PosAdd

end
-- ==== Proof.RefOps.lean ====
/-
  The reference program as a straight line of host operations, and its run.

  The reference looks the position table up at the patch numbers 0, 1, …, 575 (an embedding lookup: a function of its
  own, which in turn calls a select function of its own to wrap negative numbers round), spreads the rows it found
  over the batch and adds. Here the two functions are written out at their call sites, over the buffers the calls were
  given, so that the whole program is one list of 27 operations; its run then ends with every buffer holding what
  the operations, applied in order to the launch contents, leave there.
-/
import proofs.«169601_g40587440947273_cont_8to1_b_209_2_alg».proof.Proof.Gen.ReferenceIdeal
import Idealize.ShloMosaic.Lib.StableHlo.Run

noncomputable section

namespace Cert.ReferenceIdeal.Straight

open Cert.ReferenceIdeal Idealize.ShloMosaic Idealize.ShloMosaic.TcCoe Idealize.SL.Sem Idealize.ShloMosaic.StableHlo
open Cert.ReferenceIdeal.Facts₀

variable {F : FTy → Type} [FloatOps F]

/-- The program's 27 operations in order: the patch numbers; the lookup (negative numbers wrapped round by 576, the
    numbers as a column, whether each lies in 0 … 575, the rows gathered, a row whose number is out of range replaced
    by a not-a-number filler); the rows spread over a batch of one and then of 64; the sum. -/
abbrev ops : List (HloOp τ sig (Elt F)) :=
  [ nullary main_v0 (iotaInDim S576 32 0),
    TRef.nullary main_call0.c (constantI S_ 32 0#32),
    TRef.unary main_call0.c main_call0.v0 (broadcastInDim S576 ![] bcast_S_S576),
    TRef.binary (.of main_v0) main_call0.v0 main_call0.v1 (cmpi .slt),
    TRef.nullary main_call0.c_0 (constantI S_ 32 576#32),
    TRef.unary main_call0.c_0 main_call0.v2 (broadcastInDim S576 ![] bcast_S_S576),
    TRef.binary (.of main_v0) main_call0.v2 main_call0.v3 addi,
    TRef.ternary main_call0.v1 main_call0.v3 (.of main_v0) main_call0.call0.v0 select,
    TRef.unary main_call0.call0.v0 main_call0.v5 (broadcastInDim S576x1 ![0] bcast_S576_S576x1_0),
    TRef.nullary main_call0.c_1 (constantI S1 32 575#32),
    TRef.nullary main_call0.c_2 (constantI S_ 32 0#32),
    TRef.unary main_call0.c_2 main_call0.v6 (broadcastInDim S576x1 ![] bcast_S_S576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S576x1 ![0, 1] bcast_S1x1_S576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S576x1_S576_d1 h_S_),
    TRef.binary (.of main_arg1) main_call0.v5 main_call0.v13 (fun x i => Host.gather gather_S576x768_S576x1_S576x768_1_0_n_n_0_1_1768 x i),
    TRef.unary main_call0.v12 main_call0.v14 (broadcastInDim S576x768 ![0] bcast_S576_S576x768_0),
    TRef.nullary main_call0.cst (constant S_ .f32 0x7FC00000#32),
    TRef.unary main_call0.cst main_call0.v15 (broadcastInDim S576x768 ![] bcast_S_S576x768),
    TRef.ternary main_call0.v14 main_call0.v13 main_call0.v15 main_call0.v16 select,
    unary main_v1 main_v2 (broadcastInDim S1x576x768 ![1, 2] bcast_S576x768_S1x576x768_1_2 : (⟨S576x768, .f32⟩ : BufTy).Contents (Elt F) → (⟨S1x576x768, .f32⟩ : BufTy).Contents (Elt F)),
    unary main_v2 main_v3 (broadcastInDim S64x576x768 ![0, 1, 2] bcast_S1x576x768_S64x576x768_0_1_2 : (⟨S1x576x768, .f32⟩ : BufTy).Contents (Elt F) → (⟨S64x576x768, .f32⟩ : BufTy).Contents (Elt F)),
    binary main_arg0 main_v3 main_v4 (addf : (⟨S64x576x768, .f32⟩ : BufTy).Contents (Elt F) → (⟨S64x576x768, .f32⟩ : BufTy).Contents (Elt F) → (⟨S64x576x768, .f32⟩ : BufTy).Contents (Elt F)) ]

set_option maxRecDepth 1024 in
/-- The program is that straight line: the two functions' bodies unfolded at their calls, the sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- Every weakly fair execution of the reference terminates, and every final state has each buffer at what the
    operations, applied in order to the launch contents, leave there. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.Lookup.lean ====
/-
  Looking the position table up at every patch number in order returns the table.

  The reference does not add the table itself: it first looks its rows up at the patch numbers 0, 1, …, 575 — a gather of
  whole rows by a column of row numbers, guarded the way an indexing operation is: a negative number has 576 added, a
  number outside 0 … 575 makes its row a filler of not-a-numbers. For the numbers 0 … 575 none of the guards does
  anything: no number is negative, every number is in range, and the row gathered at number r is row r. So the rows
  looked up are the table, whatever the table holds and at whichever float instance it is read.
-/
import proofs.«169601_g40587440947273_cont_8to1_b_209_2_alg».proof.Proof.Gen.ReferenceIdeal
import proofs.«169601_g40587440947273_cont_8to1_b_209_2_alg».proof.Proof.LibRowGather
import Idealize.ShloMosaic.Lib.Pipeline.Value
import Idealize.ShloMosaic.PureOps.Reduce

noncomputable section

namespace Cert.ReferenceIdeal.Lookup

open Cert.ReferenceIdeal Idealize.ShloMosaic Idealize.ShloMosaic.ValueIdx Idealize.ShloMosaic.RowGather
open Cert.ReferenceIdeal.Facts₀

variable {F : FTy → Type} [FloatOps F]

/-- The patch numbers 0 … 575, each with 576 added if it is negative. -/
def wrapped : IVec S576 32 :=
  select (cmpi .slt (iotaInDim S576 32 0) (broadcastInDim S576 ![] bcast_S_S576 (constantI S_ 32 0#32)))
    (addi (iotaInDim S576 32 0) (broadcastInDim S576 ![] bcast_S_S576 (constantI S_ 32 576#32)))
    (iotaInDim S576 32 0)

/-- The same numbers as a column, the form the gather takes its row numbers in. -/
def column : IVec S576x1 32 := broadcastInDim S576x1 ![0] bcast_S576_S576x1_0 wrapped

/-- Per patch number, whether it lies in 0 … 575. -/
def inRange : IVec S576 1 :=
  Host.reduce IntOp.andi
    (andi (cmpi .sge column (broadcastInDim S576x1 ![] bcast_S_S576x1 (constantI S_ 32 0#32)))
      (cmpi .sle column (broadcastInDim S576x1 ![0, 1] bcast_S1x1_S576x1_0_1
        (broadcastInDim S1x1 ![1] bcast_S1_S1x1_1 (constantI S1 32 575#32)))))
    (constantI S_ 1 1#1) reducesTo_S576x1_S576_d1 h_S_

/-- The rows of the table `pos` looked up at the patch numbers: the gathered row where the number is in range, a row of
    not-a-numbers where it is not. -/
def rows (pos : Vec F S576x768 .f32) : Vec F S576x768 .f32 :=
  select (broadcastInDim S576x768 ![0] bcast_S576_S576x768_0 inRange)
    (Host.gather gather_S576x768_S576x1_S576x768_1_0_n_n_0_1_1768 pos column)
    (broadcastInDim S576x768 ![] bcast_S_S576x768 (constant S_ .f32 0x7FC00000#32))

/-! ## The three facts about one patch number, as 32-bit words -/

/-- A number below 576 is not negative as a signed word: the wrap leaves it alone. -/
theorem wrap_word : ∀ r : Fin 576,
    Scalar.select (IntOp.cmpi .slt (BitVec.ofNat 32 r.val) 0#32) (IntOp.addi (BitVec.ofNat 32 r.val) 576#32)
      (BitVec.ofNat 32 r.val) = BitVec.ofNat 32 r.val := by decide +kernel

/-- It is at least 0 and at most 575. -/
theorem range_word : ∀ r : Fin 576,
    IntOp.andi (IntOp.cmpi .sge (BitVec.ofNat 32 r.val) 0#32) (IntOp.cmpi .sle (BitVec.ofNat 32 r.val) 575#32) = 1#1 := by
  decide +kernel

/-- The row it selects, once clamped into 0 … 575 as the gather clamps, is itself. -/
theorem row_word : ∀ r : Fin 576, rowOf 576 (by decide) (BitVec.ofNat 32 r.val) = r := by decide +kernel

/-! ## The lookup, read element by element -/

theorem wrapped_apply (j : S576.Idx) : wrapped j = BitVec.ofNat 32 (j 0).val := wrap_word (j 0)

theorem column_apply (i : S576x1.Idx) : column i = BitVec.ofNat 32 (i 0).val := by
  unfold column
  rw [broadcastInDim_apply (![0] : Fin 1 → Fin S576x1.rank) bcast_S576_S576x1_0 wrapped i (ix1 (i 0))
    (fun a => match a with | ⟨0, _⟩ => rfl)]
  exact wrapped_apply _

/-- A fold of `and` from 1 over words that are all 1 is 1. -/
theorem foldl_and_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_and_ones x hx l

theorem inRange_apply (j : S576.Idx) : inRange j = 1#1 := by
  unfold inRange
  rw [Host.reduce_eq_foldl]
  refine foldl_and_ones _ (fun i => ?_) _
  show IntOp.andi (IntOp.cmpi .sge (column i) 0#32) (IntOp.cmpi .sle (column i) 575#32) = 1#1
  rw [column_apply]
  exact range_word (i 0)

/-- The rows looked up at the patch numbers in order are the table. -/
theorem rows_eq (pos : Vec F S576x768 .f32) : rows pos = pos := by
  funext j
  obtain ⟨r, a, rfl⟩ : ∃ (r : Fin 576) (a : Fin 768), j = ix2 r a := ⟨j 0, j 1, eq_ix2 j⟩
  have hmask : broadcastInDim S576x768 ![0] bcast_S576_S576x768_0 inRange (ix2 r a) = 1#1 := by
    rw [broadcastInDim_apply (![0] : Fin 1 → Fin S576x768.rank) bcast_S576_S576x768_0 inRange (ix2 r a) (ix1 r)
      (fun b => match b with | ⟨0, _⟩ => rfl)]
    exact inRange_apply _
  have hrow : Host.gather gather_S576x768_S576x1_S576x768_1_0_n_n_0_1_1768 pos column (ix2 r a) = pos (ix2 r a) := by
    refine (gather2_apply (N := 576) (A := 768) (R := 576) (by decide) gather_S576x768_S576x1_S576x768_1_0_n_n_0_1_1768_wf
      pos column r a).trans ?_
    rw [column_apply]
    exact congrArg (fun q => pos (ix2 q a)) (row_word r)
  show Scalar.select (broadcastInDim S576x768 ![0] bcast_S576_S576x768_0 inRange (ix2 r a))
      (Host.gather gather_S576x768_S576x1_S576x768_1_0_n_n_0_1_1768 pos column (ix2 r a)) _ = _
  rw [hmask, hrow]
  rfl

end Cert.ReferenceIdeal.Lookup

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.RefArray.lean ====
/-
  What the reference leaves in its result array.

  Read off the straight line of operations, the result is the batch plus the looked-up rows spread twice: first as a
  batch of one sequence, then over the 64 sequences. Spreading reads, at (b, p, d), the rows at (p, d); the rows looked
  up are the table; so the result is the batch with the table added to every sequence.
-/
import proofs.«169601_g40587440947273_cont_8to1_b_209_2_alg».proof.Proof.RefOps
import proofs.«169601_g40587440947273_cont_8to1_b_209_2_alg».proof.Proof.Lookup
import proofs.«169601_g40587440947273_cont_8to1_b_209_2_alg».proof.Proof.Spec
import proofs.«169601_g40587440947273_cont_8to1_b_209_2_alg».proof.Proof.LibJoinedPair

noncomputable section

namespace Cert.ReferenceIdeal.Straight

open Cert.ReferenceIdeal Idealize.ShloMosaic Idealize.ShloMosaic.TcCoe Idealize.SL.Sem Idealize.ShloMosaic.StableHlo
open Cert.ReferenceIdeal.Facts₀

variable {F : FTy → Type} [FloatOps F]

/-- The rows spread over the batch: first given a leading axis of one sequence, then repeated 64 times. -/
def spread (rows : Vec F S576x768 .f32) : Vec F S64x576x768 .f32 :=
  broadcastInDim S64x576x768 ![0, 1, 2] bcast_S1x576x768_S64x576x768_0_1_2
    (broadcastInDim S1x576x768 ![1, 2] bcast_S576x768_S1x576x768_1_2 rows)

/-- Spreading reads, at (b, p, d), the rows at (p, d). -/
theorem spread_apply (rows : Vec F S576x768 .f32) (i : S64x576x768.Idx) : spread rows i = rows (PosEmbed.under i) := by
  unfold spread
  refine (broadcastInDim_apply (s := S1x576x768) (t := S64x576x768) ![0, 1, 2] bcast_S1x576x768_S64x576x768_0_1_2
    (broadcastInDim S1x576x768 ![1, 2] bcast_S576x768_S1x576x768_1_2 rows) i
    (fun a => match a with | ⟨0, _⟩ => ⟨0, Nat.one_pos⟩ | ⟨1, _⟩ => i 1 | ⟨2, _⟩ => i 2)
    (fun a => match a with | ⟨0, _⟩ => rfl | ⟨1, _⟩ => rfl | ⟨2, _⟩ => rfl)).trans ?_
  exact broadcastInDim_apply (s := S576x768) (t := S1x576x768) ![1, 2] bcast_S576x768_S1x576x768_1_2 rows _ (PosEmbed.under i)
    (fun a => match a with | ⟨0, _⟩ => rfl | ⟨1, _⟩ => rfl)

/-- The result buffer after the 27 operations: the batch plus the looked-up rows, spread. Each operation writes its own
    buffer and reads buffers written before it, so the fold of the operations at the result buffer is their composition. -/
theorem result_eq (V : Valuation τ sig (Elt F)) :
    after ops V (main_v4 : DevRef τ sig)
      = addf (V (main_arg0 : DevRef τ sig)) (spread (Lookup.rows (V (main_arg1 : DevRef τ sig)))) := by
  unfold spread Lookup.rows Lookup.inRange Lookup.column Lookup.wrapped
  read_fold_casts [↓cast_eq]

theorem arg0_eq (V : Valuation τ sig (Elt F)) : after ops V (main_arg0 : DevRef τ sig) = V (main_arg0 : DevRef τ sig) := by
  read_fold

theorem arg1_eq (V : Valuation τ sig (Elt F)) : after ops V (main_arg1 : DevRef τ sig) = V (main_arg1 : DevRef τ sig) := by
  read_fold

/-- The batch plus the spread lookup is the batch with the table added to every sequence. -/
theorem sum_eq (x : Vec F S64x576x768 .f32) (pos : Vec F S576x768 .f32) :
    addf x (spread (Lookup.rows pos)) = PosEmbed.withPositions x pos := by
  funext i
  show FloatOps.addf (x i) (spread (Lookup.rows pos) i) = FloatOps.addf (x i) (pos (PosEmbed.under i))
  rw [spread_apply, Lookup.rows_eq]

/-- The reference's run: every weakly fair execution terminates with the result array at the batch with the table added,
    the two argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = PosEmbed.withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans ((result_eq _).trans (sum_eq _ _)),
      (h c main_arg0).trans (arg0_eq _), (h c main_arg1).trans (arg1_eq _)⟩)
    (run_ops m ρ)

end Cert.ReferenceIdeal.Straight

end
-- ==== Proof.lean ====
/-
  A positional-embedding add on the accelerator against its array-library reference: the five claims.

  The kernel walks the batch one sequence per grid point and adds the whole position table to the staged sequence;
  after its run the result array holds the batch with the table added to every sequence (Proof/KernelArray.lean, over
  the generated frame run and block-by-block value leg). The reference looks the table's rows up at the patch numbers
  0 … 575, which returns the table (Proof/Lookup.lean), spreads them over the batch and adds (Proof/RefOps.lean,
  Proof/RefArray.lean). Both results are one function of the two argument arrays (Proof/Spec.lean), element by element
  the float sum of the same two operands, so nothing about the extended reals is used and the precondition is never
  opened. The three frames are the generated frame runs (the reference's is its run with the result dropped); the
  kernel's idealization rewrote nothing, so there is nothing to preserve.
-/
import proofs.«169601_g40587440947273_cont_8to1_b_209_2_alg».proof.Defs
import proofs.«169601_g40587440947273_cont_8to1_b_209_2_alg».proof.Proof.Gen.Kernel
import proofs.«169601_g40587440947273_cont_8to1_b_209_2_alg».proof.Proof.Gen.Kernel.Frame
import proofs.«169601_g40587440947273_cont_8to1_b_209_2_alg».proof.Proof.Gen.KernelIdeal
import proofs.«169601_g40587440947273_cont_8to1_b_209_2_alg».proof.Proof.Gen.KernelIdeal.Frame
import proofs.«169601_g40587440947273_cont_8to1_b_209_2_alg».proof.Proof.Gen.ReferenceIdeal
import proofs.«169601_g40587440947273_cont_8to1_b_209_2_alg».proof.Proof.Gen.Pre_finite_inputs
import proofs.«169601_g40587440947273_cont_8to1_b_209_2_alg».proof.Proof.KernelArray
import proofs.«169601_g40587440947273_cont_8to1_b_209_2_alg».proof.Proof.RefArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Straight.run (F := Ideal) m ρ)

/-- From memories that agree on the batch and on the table, both programs end with the batch with the table added to
    every sequence: the same function of the same two arrays. -/
theorem algebraic : Cert.algebraic_KernelIdeal_ReferenceIdeal := by
  intro m ρ m' ρ' _ hagree
  refine ⟨_, Cert.KernelIdeal.PosAdd.run (F := Ideal) m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
